-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S20000x256 .f32) (main_arg1 : IVec S2x320000 32) (main_arg2 : FVec F S256x256 .f32) (main_arg3 : FVec F S256x256 .f32) (main_arg4 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 41
  | .vmem => 11
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .f32⟩
  | .hbm, ⟨19, _⟩ => ⟨S20000x256, .f32⟩
  | .hbm, ⟨20, _⟩ => ⟨S320000x1, .i32⟩
  | .hbm, ⟨21, _⟩ => ⟨S20000x256, .f32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S20000, .f32⟩
  | .hbm, ⟨26, _⟩ => ⟨S320000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S_, .f32⟩
  | .hbm, ⟨32, _⟩ => ⟨S20000, .f32⟩
  | .hbm, ⟨33, _⟩ => ⟨S20000, .f32⟩
  | .hbm, ⟨34, _⟩ => ⟨S20000x1, .f32⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S1x256, .f32⟩
  | .hbm, ⟨40, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  shapeCasts_S20000_S20000x1 : S20000.ShapeCasts S20000x1
  transposes_S256x256_S256x256_1_0 : S256x256.Transposes [1, 0] S256x256
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S20000x1.size a
  hwx0_2 : ∀ i : grid0.Coords, EltTy.bits .f32 = 32 ∨ (Rect.block (s := S20000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .f32 = 32 ∨ (Rect.block (s := S20000x256) S2000x256.size (cc0_transform_6 i) (hinb0_6 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v13) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x256 : Shape := ⟨2, ![1, 256]⟩

abbrev nBuf : Space → Nat
  | .hbm => 42
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .f32⟩
  | .hbm, ⟨19, _⟩ => ⟨S20000x256, .f32⟩
  | .hbm, ⟨20, _⟩ => ⟨S320000x1, .i32⟩
  | .hbm, ⟨21, _⟩ => ⟨S20000x256, .f32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S20000, .f32⟩
  | .hbm, ⟨26, _⟩ => ⟨S320000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x256, .f32⟩
  | .hbm, ⟨33, _⟩ => ⟨S20000x256, .f32⟩
  | .hbm, ⟨34, _⟩ => ⟨S256x256, .f32⟩
  | .hbm, ⟨35, _⟩ => ⟨S20000x256, .f32⟩
  | .hbm, ⟨36, _⟩ => ⟨S256x256, .f32⟩
  | .hbm, ⟨37, _⟩ => ⟨S20000x256, .f32⟩
  | .hbm, ⟨38, _⟩ => ⟨S20000x256, .f32⟩
  | .hbm, ⟨39, _⟩ => ⟨S1x256, .f32⟩
  | .hbm, ⟨40, _⟩ => ⟨S20000x256, .f32⟩
  | .hbm, ⟨41, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S256x256_S256x256_1_0 : S256x256.Transposes [1, 0] S256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x256_S20000x256_1_0_0_1_n_n_wf : DotDims.WF S20000x256 S256x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.SegmentMean.lean ====
/-
  A graph layer with mean aggregation, entry by entry, over the extended reals.

  For a node p and an output feature q the layer's value is

      sum_k mean(p, k) * Wl(q, k)  +  sum_k X(p, k) * Wr(q, k)  +  b(q),

  where mean(p, k) = S(p, k) / max(cnt(p), 1): S(p, .) is the sum of the feature rows of p's in-neighbours and
  cnt(p) their number.  The number of neighbours is a finite sum of ones, hence a real number, so the clamped
  divisor is a real that is at least one.  Dividing by such a real is multiplying by its reciprocal, for EVERY
  extended-real numerator: that is the one law that joins a program that multiplies by a precomputed reciprocal
  column and a program that divides.
-/
import Idealize.ShloMosaic.Lib.ValueIdx
import Idealize.ShloMosaic.PureOps.Ideal
import proofs.«108024_j36885179138430_2_alg».proof.Proof.LibFinite

noncomputable section

open scoped BigOperators

namespace Cert.SegmentMean

open Idealize.ShloMosaic Idealize.ShloMosaic.ValueIdx Cert.Finite

/-- Multiplying by the reciprocal of a real that is at least one is dividing by it, whatever the numerator:
    both are the product with the real number 1 / c. -/
theorem mul_recip_eq_div (s : EReal) {c : EReal} (hc : IsReal c) (h1 : 1 ≤ c) :
    s * Ideal.div 1 c = Ideal.div s c := by
  obtain ⟨r, rfl⟩ := hc
  have hr1 : (1 : ℝ) ≤ r := by exact_mod_cast h1
  have hr : r ≠ 0 := by linarith
  rw [Ideal.div_coe hr, Ideal.div_coe hr, one_mul]

/-- One output entry from its five ingredients: the row `u` of averaged neighbour features against the weight
    column `a`, the node's own feature row `x` against the weight column `w`, and the bias `β`; the two row
    products are added first, the bias last. -/
def affine (u a x w : Fin 256 → EReal) (β : EReal) : EReal :=
  ((∑ k : Fin 256, u k * a k) + ∑ k : Fin 256, x k * w k) + β

/-- The two sides' ingredients agree entry by entry, so the entries agree. -/
theorem affine_congr {u u' a a' x x' w w' : Fin 256 → EReal} {β β' : EReal}
    (hu : ∀ k, u k = u' k) (ha : ∀ k, a k = a' k) (hx : ∀ k, x k = x' k) (hw : ∀ k, w k = w' k) (hβ : β = β') :
    affine u a x w β = affine u' a' x' w' β' := by
  have e1 : u = u' := funext hu
  have e2 : a = a' := funext ha
  have e3 : x = x' := funext hx
  have e4 : w = w' := funext hw
  subst e1 e2 e3 e4 hβ
  rfl

/-- THE LAYER as one function of the neighbour sums `S`, the neighbour counts `cnt`, the features `X`, the two
    weight matrices (stored output-feature first) and the bias. -/
def layer (S : FVec Ideal ⟨2, ![20000, 256]⟩ .f32) (cnt : FVec Ideal ⟨1, ![20000]⟩ .f32)
    (X : FVec Ideal ⟨2, ![20000, 256]⟩ .f32) (Wl Wr : FVec Ideal ⟨2, ![256, 256]⟩ .f32)
    (b : FVec Ideal ⟨1, ![256]⟩ .f32) : FVec Ideal ⟨2, ![20000, 256]⟩ .f32 :=
  fun i => affine (fun k => Ideal.div (S (ix2 (i 0) k)) (max (cnt (ix1 (i 0))) 1)) (fun k => Wl (ix2 (i 1) k))
    (fun k => X (ix2 (i 0) k)) (fun k => Wr (ix2 (i 1) k)) (b (ix1 (i 1)))

/-- The layer at node `p` and output feature `q`. -/
theorem layer_apply (S : FVec Ideal ⟨2, ![20000, 256]⟩ .f32) (cnt : FVec Ideal ⟨1, ![20000]⟩ .f32)
    (X : FVec Ideal ⟨2, ![20000, 256]⟩ .f32) (Wl Wr : FVec Ideal ⟨2, ![256, 256]⟩ .f32)
    (b : FVec Ideal ⟨1, ![256]⟩ .f32) (p : Fin 20000) (q : Fin 256) :
    layer S cnt X Wl Wr b (ix2 p q)
      = affine (fun k => Ideal.div (S (ix2 p k)) (max (cnt (ix1 p)) 1)) (fun k => Wl (ix2 q k))
          (fun k => X (ix2 p k)) (fun k => Wr (ix2 q k)) (b (ix1 q)) := rfl

end Cert.SegmentMean

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.BlockBody.lean ====
/-
  What the kernel body computes for one block of 2000 nodes, read at an entry.

  The body multiplies the block of neighbour sums by the block's column of reciprocals (one number per node,
  repeated across the 256 features), multiplies the result by the first weight matrix, multiplies the block of
  node features by the second weight matrix, adds the two products and then the bias row (repeated down the
  2000 nodes).  Changes of number format are the identity on the extended reals, and a matrix product into a
  zero accumulator is the textbook sum over the contracted coordinate.  So entry (p, q) of the block is
  `affine` of row p of the scaled sums, column q of the first weights, row p of the features, column q of
  the second weights, and entry q of the bias.
-/
import proofs.«108024_j36885179138430_2_alg».proof.Proof.Gen.KernelIdeal.Skeleton
import proofs.«108024_j36885179138430_2_alg».proof.Proof.SegmentMean
import proofs.«108024_j36885179138430_2_alg».proof.Proof.LibPlainProduct
import proofs.«108024_j36885179138430_2_alg».proof.Proof.LibRepeat
import Idealize.ShloMosaic.Lib.Pipeline.Value
import Idealize.ShloMosaic.Lib.ValueIdx

noncomputable section

open scoped BigOperators

namespace Cert.KernelIdeal.BlockBody

open Cert.KernelIdeal Cert.KernelIdeal.Gen Idealize.ShloMosaic Idealize.ShloMosaic.ValueIdx Cert.SegmentMean

/-- The printed dimension numbers of both products are those of the plain product of a 2000×256 by a 256×256
    matrix. -/
theorem dims_plain : dot_S2000x256_S256x256_S2000x256_1_0_0_1_n_n = DotDims.plain 2000 256 256 := rfl

/-- ENTRY (p, q) OF THE BLOCK the body stores, from the six blocks it loads: sums `s`, reciprocal column `r`,
    features `x`, the two weight matrices `a`, `w` (input feature first), the bias row `β`. -/
theorem payload_apply (s : FVec Ideal S2000x256 .f32) (r : FVec Ideal S2000x1 .f32) (x : FVec Ideal S2000x256 .f32)
    (a w : FVec Ideal S256x256 .bf16) (β : FVec Ideal S1x256 .f32) (p : Fin 2000) (q : Fin 256) :
    k0_pay1 (F := Ideal) s r x a w β (ix2 p q)
      = affine (fun k => s (ix2 p k) * r (ix2 p (0 : Fin 1))) (fun k => a (ix2 k q))
          (fun k => x (ix2 p k)) (fun k => w (ix2 k q)) (β (ix2 (0 : Fin 1) q)) := by
  unfold k0_pay1 affine
  simp only [shapeCast_self]
  rw [addf_apply, addf_apply, Cert.Lib.Repeat.rowRepeat_apply,
    Cert.PlainProduct.matmul_plain_apply _ dims_plain, Cert.PlainProduct.matmul_plain_apply _ dims_plain]
  simp only [truncf_apply, mulf_apply, Cert.Lib.Repeat.colRepeat_apply]

end Cert.KernelIdeal.BlockBody

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.HostStages.lean ====
/-
  What the block computation finds in its input arrays: the neighbour sums, the reciprocal column, the two
  weight matrices and the bias row, each as a pure function of the program's five arguments.

  Before the blocks are processed the program reads the edge list (row 0 the source node of every edge, row 1 the
  destination), gathers the source rows of the feature matrix and adds each into its destination's row (the
  neighbour sums), adds a one into each destination's counter (the neighbour counts), forms the column of
  reciprocals 1 / max(count, 1), transposes both weight matrices so that the input feature comes first, and
  lays the bias out as one row.
-/
import proofs.«108024_j36885179138430_2_alg».proof.Proof.Gen.KernelIdeal.Frame
import proofs.«108024_j36885179138430_2_alg».proof.Proof.LibFinite
import proofs.«108024_j36885179138430_2_alg».proof.Proof.LibColumn
import Idealize.ShloMosaic.Lib.StableHlo.Run
import Idealize.ShloMosaic.Lib.Pipeline.Value
import Idealize.ShloMosaic.Lib.ValueIdx

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx Cert.Finite

/-! ## The edge list's two rows, the neighbour sums and the neighbour counts -/

/-- The source node of every edge, as the column of start indices the gather takes: row 0 of the edge list, a
    negative entry moved up by the number of nodes. -/
def srcIdx (e : (⟨S2x320000, .i32⟩ : BufTy).Contents (Elt Ideal)) : (⟨S320000x1, .i32⟩ : BufTy).Contents (Elt Ideal) :=
  broadcastInDim S320000x1 ![0] bcast_S320000_S320000x1_0
    (select
      (cmpi .slt (shapeCast _ (extractStridedSlice S1x320000 ![0, 0] e slices_S2x320000_S1x320000_0_0) shapeCasts_S1x320000_S320000)
        (broadcastInDim S320000 ![] bcast_S_S320000 (constantI S_ 32 0#32)))
      (addi (shapeCast _ (extractStridedSlice S1x320000 ![0, 0] e slices_S2x320000_S1x320000_0_0) shapeCasts_S1x320000_S320000)
        (broadcastInDim S320000 ![] bcast_S_S320000 (constantI S_ 32 20000#32)))
      (shapeCast _ (extractStridedSlice S1x320000 ![0, 0] e slices_S2x320000_S1x320000_0_0) shapeCasts_S1x320000_S320000))

/-- The destination node of every edge, as the column of indices the two accumulations take: row 1 of the edge list. -/
def dstIdx (e : (⟨S2x320000, .i32⟩ : BufTy).Contents (Elt Ideal)) : (⟨S320000x1, .i32⟩ : BufTy).Contents (Elt Ideal) :=
  broadcastInDim S320000x1 ![0] bcast_S320000_S320000x1_0
    (shapeCast _ (extractStridedSlice S1x320000 ![1, 0] e slices_S2x320000_S1x320000_1_0) shapeCasts_S1x320000_S320000)

/-- THE NEIGHBOUR SUMS: into a zero matrix, the feature row of every edge's source added to the row of its destination. -/
def nbrSums (x : (⟨S20000x256, .f32⟩ : BufTy).Contents (Elt Ideal)) (e : (⟨S2x320000, .i32⟩ : BufTy).Contents (Elt Ideal)) :
    (⟨S20000x256, .f32⟩ : BufTy).Contents (Elt Ideal) :=
  Host.scatterAdd scatter_S20000x256_S320000x1_S320000x256_1_0_0_1
    (broadcastInDim S20000x256 ![] bcast_S_S20000x256 (constant (F := Ideal) S_ .f32 0x00000000#32)) (dstIdx e)
    (Host.gather gather_S20000x256_S320000x1_S320000x256_1_0_n_n_0_1_1256 x (srcIdx e))

/-- THE NEIGHBOUR COUNTS: into a zero vector, a one added to the entry of every edge's destination. -/
def nbrCount (e : (⟨S2x320000, .i32⟩ : BufTy).Contents (Elt Ideal)) : (⟨S20000, .f32⟩ : BufTy).Contents (Elt Ideal) :=
  Host.scatterAdd scatter_S20000_S320000x1_S320000_n_0_0_1
    (broadcastInDim S20000 ![] bcast_S_S20000 (constant (F := Ideal) S_ .f32 0x00000000#32)) (dstIdx e)
    (broadcastInDim S320000 ![] bcast_S_S320000 (constant (F := Ideal) S_ .f32 0x3F800000#32))

/-- A neighbour count is a real number: zero plus a finite sum of ones. -/
theorem nbrCount_isReal (e : (⟨S2x320000, .i32⟩ : BufTy).Contents (Elt Ideal)) (j : S20000.Idx) : IsReal (nbrCount e j) := by
  unfold nbrCount
  refine scatterAdd_isReal _ _ _ _ (fun i => ?_) (fun i => ?_) j
  · show IsReal (Ideal.ofBits .f32 0x00000000#32)
    exact isReal_ofBits_zero_f32
  · show IsReal (Ideal.ofBits .f32 0x3F800000#32)
    exact isReal_ofBits_one_f32

variable (m : (ℓ : Loc nD τ sig) → Buf (Elt Ideal) ℓ)

/-! ## The five arrays as the block computation finds them -/

/-- The first window's array holds the neighbour sums. -/
theorem sums_stage (c : Dev nD) :
    (V m c main_v13 : S20000x256.Idx → EReal)
      = nbrSums (m ((c : Thread nD τ).loc main_arg0)) (m ((c : Thread nD τ).loc main_arg1)) := by
  dsimp only [Gen.V, Gen.hostOps0]; after_results <;> rfl

/-- The third window's array holds the column of reciprocals of the clamped counts. -/
theorem recip_stage (c : Dev nD) :
    (V m c main_v22 : S20000x1.Idx → EReal)
      = shapeCast _ (Host.divf (F := Ideal)
          (broadcastInDim S20000 ![] bcast_S_S20000 (constant (F := Ideal) S_ .f32 0x3F800000#32))
          (maximumf (nbrCount (m ((c : Thread nD τ).loc main_arg1)))
            (broadcastInDim S20000 ![] bcast_S_S20000 (constant (F := Ideal) S_ .f32 0x3F800000#32))))
          shapeCasts_S20000_S20000x1 := by
  dsimp only [Gen.V, Gen.hostOps0]; after_results <;> rfl

/-- The fourth window's array holds the first weight matrix transposed (its change of number format is the identity). -/
theorem wl_stage (c : Dev nD) :
    (V m c main_v24 : S256x256.Idx → EReal)
      = truncf (F := Ideal) .bf16 (transpose S256x256 [1, 0] (m ((c : Thread nD τ).loc main_arg2)) transposes_S256x256_S256x256_1_0) bitsLt_bf16_f32 := by
  dsimp only [Gen.V, Gen.hostOps0]; after_results <;> rfl

/-- The fifth window's array holds the second weight matrix transposed. -/
theorem wr_stage (c : Dev nD) :
    (V m c main_v26 : S256x256.Idx → EReal)
      = truncf (F := Ideal) .bf16 (transpose S256x256 [1, 0] (m ((c : Thread nD τ).loc main_arg3)) transposes_S256x256_S256x256_1_0) bitsLt_bf16_f32 := by
  dsimp only [Gen.V, Gen.hostOps0]; after_results <;> rfl

/-- The sixth window's array holds the bias as one row. -/
theorem bias_stage (c : Dev nD) :
    (V m c main_v27 : S1x256.Idx → EReal)
      = shapeCast _ (m ((c : Thread nD τ).loc main_arg4)) shapeCasts_S256_S1x256 := by
  dsimp only [Gen.V, Gen.hostOps0]; after_results <;> rfl

/-! ## The same arrays read at an entry -/

/-- The host's quotient of two arrays, at an entry, is the quotient of the entries. -/
theorem hostDivf_apply {s : Shape} {φ : FTy} (x y : FVec Ideal s φ) (i : s.Idx) :
    Host.divf x y i = Ideal.div (x i) (y i) := rfl

/-- A scalar constant repeated over an array is that constant at every entry. -/
theorem splat_apply {t : Shape} (h : S_.BroadcastsInDim t (![] : Fin 0 → Fin t.rank)) (b : BitVec 32) (i : t.Idx) :
    broadcastInDim t ![] h (constant (F := Ideal) S_ .f32 b) i = Ideal.ofBits .f32 b := rfl

/-- The reciprocal column at node `r`: one over the node's clamped neighbour count. -/
theorem recip_apply (c : Dev nD) (r : Fin 20000) (u : Fin 1) :
    (V m c main_v22 : S20000x1.Idx → EReal) (ix2 r u)
      = Ideal.div 1 (max (nbrCount (m ((c : Thread nD τ).loc main_arg1)) (ix1 r)) 1) := by
  rw [recip_stage, Cert.Lib.Column.shapeCast_a_a1_apply, hostDivf_apply, maximumf_apply, splat_apply, Ideal.ofBits_one_f32]

/-- The first transposed weight matrix at (input feature `k`, output feature `q`) is the stored matrix at (q, k). -/
theorem wl_apply (c : Dev nD) (k q : Fin 256) :
    (V m c main_v24 : S256x256.Idx → EReal) (ix2 k q) = (m ((c : Thread nD τ).loc main_arg2) : S256x256.Idx → EReal) (ix2 q k) := by
  rw [wl_stage, truncf_apply]
  exact transpose_apply [1, 0] _ transposes_S256x256_S256x256_1_0 (ix2 k q) (ix2 q k) (fun b => match b with
    | ⟨0, _⟩ => rfl
    | ⟨1, _⟩ => rfl)

/-- The second transposed weight matrix likewise. -/
theorem wr_apply (c : Dev nD) (k q : Fin 256) :
    (V m c main_v26 : S256x256.Idx → EReal) (ix2 k q) = (m ((c : Thread nD τ).loc main_arg3) : S256x256.Idx → EReal) (ix2 q k) := by
  rw [wr_stage, truncf_apply]
  exact transpose_apply [1, 0] _ transposes_S256x256_S256x256_1_0 (ix2 k q) (ix2 q k) (fun b => match b with
    | ⟨0, _⟩ => rfl
    | ⟨1, _⟩ => rfl)

/-- The bias row at output feature `q` is the bias vector's entry `q`. -/
theorem bias_apply (c : Dev nD) (u : Fin 1) (q : Fin 256) :
    (V m c main_v27 : S1x256.Idx → EReal) (ix2 u q) = (m ((c : Thread nD τ).loc main_arg4) : S256.Idx → EReal) (ix1 q) := by
  rw [bias_stage]
  exact shapeCast_apply _ shapeCasts_S256_S1x256 _ _ (by
    have hu : u.val = 0 := by omega
    rw [Shape.rowMajor_val_two, Shape.rowMajor_val_one]
    show q.val = u.val * 256 + q.val
    omega)

end Cert.KernelIdeal.HostStages

end
-- ==== Proof.KernelArray.lean ====
/-
  The array the block computation leaves: the layer.

  The 20000 nodes are processed in ten blocks of 2000.  Block t of the neighbour sums, of the features and of the
  reciprocal column is rows 2000 t … 2000 t + 1999 of the respective array; the two weight matrices and the bias row
  are read whole at every block.  So entry (p, q) of what block t writes back is `affine` of row 2000 t + p of the
  sums, each entry times that node's reciprocal, against column q of the first transposed weights, row 2000 t + p of
  the features against column q of the second, and entry q of the bias.  A node's reciprocal is one over its clamped
  neighbour count, a real that is at least one, so "sum times reciprocal" is "sum divided by clamped count"; the
  transposed weights at (k, q) are the stored weights at (q, k).  Hence block t writes back rows 2000 t … of the
  layer, and the ten blocks tile the array (node r lies in block r / 2000): the array ends holding the layer.
-/
import proofs.«108024_j36885179138430_2_alg».proof.Proof.Gen.KernelIdeal.Value
import proofs.«108024_j36885179138430_2_alg».proof.Proof.BlockBody
import proofs.«108024_j36885179138430_2_alg».proof.Proof.HostStages
import proofs.«108024_j36885179138430_2_alg».proof.Proof.SegmentMean
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KernelArray

open Cert.KernelIdeal Cert.KernelIdeal.Gen Cert.KernelIdeal.Value Cert.KernelIdeal.HostStages
open Idealize.ShloMosaic.ValueIdx Cert.SegmentMean Cert.Finite

variable (m : (ℓ : Loc nD τ sig) → Buf (Elt Ideal) ℓ) (ρ : Dev nD → PrngReg)

theorem hz : (![0, 0] : Fin 2 → Nat) = fun _ => 0 := funext fun a => by fin_cases a <;> rfl

/-- Where each window's block sits, decided over the ten grid points: the three row-blocked windows and the output
    are at block row `t`, block column 0; the weights and the bias are at block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Node `2000 t + p`: row `p` of block `t`. -/
def row (t : Fin cfg0.N) (p : Fin 2000) : Fin 20000 :=
  ⟨2000 * t.val + p.val, by have hN : cfg0.N = 10 := N_0; have := t.isLt; have := p.isLt; omega⟩

/-! ## Each input block as rows of its array -/

theorem blk_sums (c : Dev nD) (t : Fin cfg0.N) (p : Fin 2000) (k : Fin 256) :
    (iblk m c 0 t : FVec Ideal S2000x256 .f32) (ix2 p k) = (V m c main_v13 : S20000x256.Idx → EReal) (ix2 (row t p) k) := by
  obtain ⟨e0, e1, -⟩ := idx_facts t
  show V m c main_v13 (((cfg0.win 0).blk t).view.emb (ix2 p k)) = V m c main_v13 (ix2 (row t p) k)
  refine congrArg (V m c main_v13) (funext fun a => Fin.ext ?_)
  match a with
  | ⟨0, _⟩ => show win0_0.index t (0 : Fin 2) * 2000 + 1 * p.val = 2000 * t.val + p.val; omega
  | ⟨1, _⟩ => show win0_0.index t (1 : Fin 2) * 256 + 1 * k.val = k.val; omega

theorem blk_feat (c : Dev nD) (t : Fin cfg0.N) (p : Fin 2000) (k : Fin 256) :
    (iblk m c 1 t : FVec Ideal S2000x256 .f32) (ix2 p k) = (V m c main_arg0 : S20000x256.Idx → EReal) (ix2 (row t p) k) := by
  obtain ⟨-, -, e0, e1, -⟩ := idx_facts t
  show V m c main_arg0 (((cfg0.win 1).blk t).view.emb (ix2 p k)) = V m c main_arg0 (ix2 (row t p) k)
  refine congrArg (V m c main_arg0) (funext fun a => Fin.ext ?_)
  match a with
  | ⟨0, _⟩ => show win0_1.index t (0 : Fin 2) * 2000 + 1 * p.val = 2000 * t.val + p.val; omega
  | ⟨1, _⟩ => show win0_1.index t (1 : Fin 2) * 256 + 1 * k.val = k.val; omega

theorem blk_recip (c : Dev nD) (t : Fin cfg0.N) (p : Fin 2000) (u : Fin 1) :
    (iblk m c 2 t : FVec Ideal S2000x1 .f32) (ix2 p u) = (V m c main_v22 : S20000x1.Idx → EReal) (ix2 (row t p) u) := by
  obtain ⟨-, -, -, -, e0, e1, -⟩ := idx_facts t
  show V m c main_v22 (((cfg0.win 2).blk t).view.emb (ix2 p u)) = V m c main_v22 (ix2 (row t p) u)
  refine congrArg (V m c main_v22) (funext fun a => Fin.ext ?_)
  match a with
  | ⟨0, _⟩ => show win0_2.index t (0 : Fin 2) * 2000 + 1 * p.val = 2000 * t.val + p.val; omega
  | ⟨1, _⟩ => show win0_2.index t (1 : Fin 2) * 1 + 1 * u.val = u.val; omega

theorem blk_wl (c : Dev nD) (t : Fin cfg0.N) (k q : Fin 256) :
    (iblk m c 3 t : FVec Ideal S256x256 .bf16) (ix2 k q) = (V m c main_v24 : S256x256.Idx → EReal) (ix2 k q) := by
  obtain ⟨-, -, -, -, -, -, e0, e1, -⟩ := idx_facts t
  show V m c main_v24 (((cfg0.win 3).blk t).view.emb (ix2 k q)) = V m c main_v24 (ix2 k q)
  refine congrArg (V m c main_v24) (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

theorem blk_wr (c : Dev nD) (t : Fin cfg0.N) (k q : Fin 256) :
    (iblk m c 4 t : FVec Ideal S256x256 .bf16) (ix2 k q) = (V m c main_v26 : S256x256.Idx → EReal) (ix2 k q) := by
  obtain ⟨-, -, -, -, -, -, -, -, e0, e1, -⟩ := idx_facts t
  show V m c main_v26 (((cfg0.win 4).blk t).view.emb (ix2 k q)) = V m c main_v26 (ix2 k q)
  refine congrArg (V m c main_v26) (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega

theorem blk_bias (c : Dev nD) (t : Fin cfg0.N) (u : Fin 1) (q : Fin 256) :
    (iblk m c 5 t : FVec Ideal S1x256 .f32) (ix2 u q) = (V m c main_v27 : S1x256.Idx → EReal) (ix2 u q) := by
  obtain ⟨-, -, -, -, -, -, -, -, -, -, e0, e1, -⟩ := idx_facts t
  show V m c main_v27 (((cfg0.win 5).blk t).view.emb (ix2 u q)) = V m c main_v27 (ix2 u q)
  refine congrArg (V m c main_v27) (funext fun a => Fin.ext ?_)
  match a with
  | ⟨0, _⟩ => show win0_5.index t (0 : Fin 2) * 1 + 1 * u.val = u.val; omega
  | ⟨1, _⟩ => show win0_5.index t (1 : Fin 2) * 256 + 1 * q.val = q.val; omega

/-- Entry (p, q) of the output's block `t` is entry (2000 t + p, q) of the array. -/
theorem emb_out (t : Fin cfg0.N) (p : Fin 2000) (q : Fin 256) :
    ((cfg0.win 6).blk t).view.emb (ix2 p q) = (ix2 (row t p) q : S20000x256.Idx) := by
  obtain ⟨-, -, -, -, -, -, -, -, -, -, -, -, e0, e1⟩ := idx_facts t
  refine funext fun a => Fin.ext ?_
  match a with
  | ⟨0, _⟩ => show win0_6.index t (0 : Fin 2) * 2000 + 1 * p.val = 2000 * t.val + p.val; omega
  | ⟨1, _⟩ => show win0_6.index t (1 : Fin 2) * 256 + 1 * q.val = q.val; omega

/-! ## What the array ends holding -/

/-- THE LAYER of the program's own neighbour sums and counts, features, weights and bias. -/
abbrev result (c : Dev nD) : Buf (Elt Ideal) ((c : Thread nD τ).loc main_v28) :=
  layer (nbrSums (m ((c : Thread nD τ).loc main_arg0)) (m ((c : Thread nD τ).loc main_arg1)))
    (nbrCount (m ((c : Thread nD τ).loc main_arg1))) (m ((c : Thread nD τ).loc main_arg0))
    (m ((c : Thread nD τ).loc main_arg2)) (m ((c : Thread nD τ).loc main_arg3)) (m ((c : Thread nD τ).loc main_arg4))

/-- WHAT BLOCK `t` WRITES BACK is rows 2000 t … 2000 t + 1999 of the layer. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S2000x256) hz, View.ld_unit_zero (S := S2000x1) hz,
    View.ld_unit_zero (S := S256x256) hz, View.ld_unit_zero (S := S1x256) hz]
  refine funext fun (j : S2000x256.Idx) => ?_
  obtain ⟨p, q, rfl⟩ : ∃ (p : Fin 2000) (q : Fin 256), j = ix2 p q := ⟨j 0, j 1, eq_ix2 j⟩
  show k0_pay1 (F := Ideal) (iblk m c 0 t) (iblk m c 2 t) (iblk m c 1 t) (iblk m c 3 t) (iblk m c 4 t) (iblk m c 5 t) (ix2 p q)
    = result m c (((cfg0.win 6).blk t).view.emb (ix2 p q))
  rw [emb_out t p q]
  refine (BlockBody.payload_apply (iblk m c 0 t) (iblk m c 2 t) (iblk m c 1 t) (iblk m c 3 t) (iblk m c 4 t) (iblk m c 5 t) p q).trans ?_
  refine (affine_congr (fun k => ?_) (fun k => ?_) (fun k => ?_) (fun k => ?_) ?_).trans (layer_apply _ _ _ _ _ _ (row t p) q).symm
  · rw [blk_sums m c t p k, blk_recip m c t p 0, sums_stage m c, recip_apply m c (row t p) 0]
    exact mul_recip_eq_div _ ((nbrCount_isReal _ _).max isReal_one) (le_max_right _ _)
  · rw [blk_wl m c t k q, wl_apply m c k q]
  · rw [blk_feat m c t p k, V_main_arg0 m c]
  · rw [blk_wr m c t k q, wr_apply m c k q]
  · rw [blk_bias m c t 0 q, bias_apply m c 0 q]

/-- An index of the array is in block `t` iff each coordinate is in the block's range on its axis. -/
theorem mem_blk (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v28).slice (win0_6.rect t)).set ↔ _
  rw [View.set_slice_whole, Rect.mem_set_unit]
  exact Iff.rfl

/-- The ten blocks tile the array: node `r` is in block `r / 2000`. -/
theorem cover (i : S20000x256.Idx) :
    ∃ t : Fin cfg0.N, (cfg0.win 6).flush t = true ∧ i ∈ ((cfg0.win 6).blk t).view.set := by
  have hN : cfg0.N = 10 := N_0
  have hi0 : (i 0).val < 20000 := (i 0).isLt
  have hi1 : (i 1).val < 256 := (i 1).isLt
  have hlt : (i 0).val / 2000 < cfg0.N := by rw [hN]; omega
  obtain ⟨-, -, -, -, -, -, -, -, -, -, -, -, e0, e1⟩ := idx_facts ⟨(i 0).val / 2000, hlt⟩
  refine ⟨⟨(i 0).val / 2000, hlt⟩, flush0_6 _, ?_⟩
  rw [mem_blk]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, hlt⟩ (1 : Fin 2) * 256 ≤ (i 1).val ∧ (i 1).val < win0_6.index ⟨(i 0).val / 2000, hlt⟩ (1 : Fin 2) * 256 + 256
    rw [e1]
    omega

/-- THE ARRAY AFTER THE RUN is the layer. -/
theorem final (c : Dev nD) : (dats m 0 c).arrAt 6 cfg0.N = result m c :=
  (dats m 0 c).arrAt_eq_of_cover 6 (result m c) (fun t _ => flushed_eq m c t) cover

/-- The run, read: the result array ends holding the layer, the five arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelArray

end
-- ==== Proof.RefArray.lean ====
/-
  The reference program's result is the layer.

  The reference divides every row of the neighbour sums by the node's clamped neighbour count, multiplies the
  quotient by the transposed first weight matrix, multiplies the features by the transposed second one, adds the two
  products and then the bias repeated down the rows.  Read at node p and output feature q this is `affine` of the row of
  quotients, row q of the first stored weights, row p of the features, row q of the second stored weights and
  entry q of the bias — the layer's defining expression, with the sums and counts the program's own.
-/
import proofs.«108024_j36885179138430_2_alg».proof.Proof.Gen.ReferenceIdeal.Read
import proofs.«108024_j36885179138430_2_alg».proof.Proof.SegmentMean
import Idealize.ShloMosaic.Lib.IdealHost

noncomputable section

open scoped BigOperators

namespace Cert.ReferenceIdeal.RefArray

open Cert.ReferenceIdeal Cert.ReferenceIdeal.Read Idealize.ShloMosaic Idealize.ShloMosaic.ValueIdx Cert.SegmentMean

/-- The left operand of either product is read along row `p`. -/
theorem lidx24 (p : Fin 20000) (q k : Fin 256) : lidx_main_v24 (ix2 p q) k = ix2 p k :=
  funext fun a => Fin.ext (by match a with | ⟨0, _⟩ => rfl | ⟨1, _⟩ => rfl)

theorem lidx26 (p : Fin 20000) (q k : Fin 256) : lidx_main_v26 (ix2 p q) k = ix2 p k :=
  funext fun a => Fin.ext (by match a with | ⟨0, _⟩ => rfl | ⟨1, _⟩ => rfl)

/-- The transposed weights at (k, q) are the stored weights at (q, k). -/
theorem ridx24 (p : Fin 20000) (q k : Fin 256) : idx_main_v23 (ridx_main_v24 (ix2 p q) k) = ix2 q k :=
  funext fun a => Fin.ext (by match a with | ⟨0, _⟩ => rfl | ⟨1, _⟩ => rfl)

theorem ridx26 (p : Fin 20000) (q k : Fin 256) : idx_main_v25 (ridx_main_v26 (ix2 p q) k) = ix2 q k :=
  funext fun a => Fin.ext (by match a with | ⟨0, _⟩ => rfl | ⟨1, _⟩ => rfl)

/-- The divisor repeated across a row is the node's clamped count. -/
theorem cidx (p : Fin 20000) (k : Fin 256) : idx_main_v20 (idx_main_v21 (ix2 p k)) = ix1 p :=
  funext fun a => Fin.ext (by match a with | ⟨0, _⟩ => rfl)

/-- The bias repeated down the rows is the bias vector's entry `q`. -/
theorem bidx (p : Fin 20000) (q : Fin 256) : idx_main_v28 (idx_main_v29 (ix2 p q)) = ix1 q :=
  funext fun a => Fin.ext (by match a with | ⟨0, _⟩ => rfl)

/-- The row of quotients: neighbour sum over clamped neighbour count. -/
theorem mean_apply (x0 : (⟨S20000x256, .f32⟩ : BufTy).Contents (Elt Ideal)) (x1 : (⟨S2x320000, .i32⟩ : BufTy).Contents (Elt Ideal))
    (p : Fin 20000) (k : Fin 256) :
    val_main_v22 (F := Ideal) x0 x1 (ix2 p k)
      = Ideal.div (val_main_v13 (F := Ideal) x0 x1 (ix2 p k)) (max (val_main_v17 (F := Ideal) x1 (ix1 p)) 1) := by
  rw [val_main_v22_apply, val_main_v21_apply, val_main_v20_apply, val_main_v19_apply, val_main_v18_apply,
    val_main_cst_3_apply, cidx, Ideal.hostDivf_def, Ideal.maximumf_def]
  show Ideal.div _ (max _ (Ideal.ofBits .f32 0x3F800000#32)) = _
  rw [Ideal.ofBits_one_f32]

/-- THE REFERENCE'S RESULT, as one function of the five arguments, is the layer of its own neighbour sums and counts. -/
theorem result_eq_layer (x0 : (⟨S20000x256, .f32⟩ : BufTy).Contents (Elt Ideal)) (x1 : (⟨S2x320000, .i32⟩ : BufTy).Contents (Elt Ideal))
    (x2 x3 : (⟨S256x256, .f32⟩ : BufTy).Contents (Elt Ideal)) (x4 : (⟨S256, .f32⟩ : BufTy).Contents (Elt Ideal)) :
    val_main_v30 (F := Ideal) x0 x1 x2 x3 x4
      = layer (val_main_v13 (F := Ideal) x0 x1) (val_main_v17 (F := Ideal) x1) x0 x2 x3 x4 := by
  funext i
  obtain ⟨p, q, rfl⟩ : ∃ (p : Fin 20000) (q : Fin 256), i = ix2 p q := ⟨i 0, i 1, eq_ix2 i⟩
  rw [layer_apply, val_main_v30_apply, val_main_v27_apply, val_main_v24_apply, val_main_v26_apply, val_main_v29_apply,
    val_main_v28_apply, bidx]
  show affine (fun k => val_main_v22 (F := Ideal) x0 x1 (lidx_main_v24 (ix2 p q) k))
      (fun k => val_main_v23 (F := Ideal) x2 (ridx_main_v24 (ix2 p q) k))
      (fun k => x0 (lidx_main_v26 (ix2 p q) k))
      (fun k => val_main_v25 (F := Ideal) x3 (ridx_main_v26 (ix2 p q) k)) (x4 (ix1 q)) = _
  refine affine_congr (fun k => ?_) (fun k => ?_) (fun k => ?_) (fun k => ?_) rfl
  · rw [lidx24, mean_apply]
  · rw [val_main_v23_apply, ridx24]
  · rw [lidx26]
  · rw [val_main_v25_apply, ridx26]

end Cert.ReferenceIdeal.RefArray

end
-- ==== Proof.lean ====
/-
  A graph layer with mean aggregation: the blocked program against the whole-array program, over the extended reals.

  Both programs begin alike: from the edge list they form, for every node, the sum of its in-neighbours' feature rows
  and the number of those neighbours.  The whole-array program divides each row of sums by the node's count clamped
  from below by one, multiplies by the first weight matrix transposed, adds the features times the second weight
  matrix transposed, and adds the bias.  The blocked program instead precomputes the column of reciprocals of the
  clamped counts and, block of 2000 nodes by block, multiplies the sums by that column before the same two products,
  the same sum and the same bias, in the same order of additions.

  A count is a finite sum of ones, hence real, so a clamped count is a real that is at least one; multiplying by the
  reciprocal of such a number is dividing by it, whatever (finite or infinite) is being divided.  That is the only
  law needed: no sum is regrouped and no product is distributed, so the two results agree for all extended-real
  features, weights and biases.  Both results are the one function `Cert.SegmentMean.layer` of the shared sums and
  counts and of the arguments.  The blocked program's frame and the meaning of its result array block by block, and
  the whole-array program's run and its stages read at an index, are the generated modules imported below; the
  rounding steps of the blocked program are part of its own text, so the idealization rewrote nothing.
-/
import proofs.«108024_j36885179138430_2_alg».proof.Defs
import proofs.«108024_j36885179138430_2_alg».proof.Proof.Gen.Kernel
import proofs.«108024_j36885179138430_2_alg».proof.Proof.Gen.Kernel.Frame
import proofs.«108024_j36885179138430_2_alg».proof.Proof.Gen.KernelIdeal
import proofs.«108024_j36885179138430_2_alg».proof.Proof.Gen.KernelIdeal.Frame
import proofs.«108024_j36885179138430_2_alg».proof.Proof.Gen.KernelIdeal.Value
import proofs.«108024_j36885179138430_2_alg».proof.Proof.Gen.ReferenceIdeal
import proofs.«108024_j36885179138430_2_alg».proof.Proof.Gen.ReferenceIdeal.Run
import proofs.«108024_j36885179138430_2_alg».proof.Proof.Gen.ReferenceIdeal.Read
import proofs.«108024_j36885179138430_2_alg».proof.Proof.Gen.Pre_finite_inputs
import proofs.«108024_j36885179138430_2_alg».proof.Proof.KernelArray
import proofs.«108024_j36885179138430_2_alg».proof.Proof.RefArray

noncomputable section

namespace Cert.Proof

open Idealize.ShloMosaic Idealize.SL.Sem

/-- The blocked program, as printed, runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The whole-array program runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- The two programs form the neighbour sums by the same operations of the features and the edge list. -/
theorem sums_same (x : (⟨Cert.ReferenceIdeal.S20000x256, .f32⟩ : BufTy).Contents (Elt Ideal))
    (e : (⟨Cert.ReferenceIdeal.S2x320000, .i32⟩ : BufTy).Contents (Elt Ideal)) :
    Cert.ReferenceIdeal.Read.val_main_v13 (F := Ideal) x e = Cert.KernelIdeal.HostStages.nbrSums x e := rfl

/-- And the neighbour counts by the same operations of the edge list. -/
theorem count_same (e : (⟨Cert.ReferenceIdeal.S2x320000, .i32⟩ : BufTy).Contents (Elt Ideal)) :
    Cert.ReferenceIdeal.Read.val_main_v17 (F := Ideal) e = Cert.KernelIdeal.HostStages.nbrCount e := rfl

/-- From memories agreeing on the five arguments both programs end with the layer of those arguments in their result
    arrays: the blocked one by its blocks tiling the array, the whole-array one by its stages read at an index. -/
theorem algebraic : Cert.algebraic_KernelIdeal_ReferenceIdeal := by
  intro m ρ m' ρ' _ hagree
  refine ⟨fun c => Cert.KernelIdeal.KernelArray.result m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefArray.result_eq_layer, sums_same, count_same,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
